-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096 : Shape := ⟨2, ![32, 4096]⟩
abbrev S1x4096 : Shape := ⟨2, ![1, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S32x4096 .f32) (main_arg3 : FVec F S1x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S32x4096 : Shape := ⟨2, ![32, 4096]⟩
abbrev S1x4096 : Shape := ⟨2, ![1, 4096]⟩
abbrev S4096 : Shape := ⟨1, ![4096]⟩
abbrev S8192x4096 : Shape := ⟨2, ![8192, 4096]⟩
abbrev S1024x1024 : Shape := ⟨2, ![1024, 1024]⟩
abbrev S1024x512 : Shape := ⟨2, ![1024, 512]⟩
abbrev S8x512 : Shape := ⟨2, ![8, 512]⟩
abbrev S1x512 : Shape := ⟨2, ![1, 512]⟩
abbrev S1024x1 : Shape := ⟨2, ![1024, 1]⟩
abbrev S1024 : Shape := ⟨1, ![1024]⟩
abbrev S1024x128 : Shape := ⟨2, ![1024, 128]⟩
abbrev S128x512 : Shape := ⟨2, ![128, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i32⟩
  | .local _ .vmem, ⟨3, _⟩ => ⟨S1024x512, .i32⟩
  | .local _ .vmem, ⟨4, _⟩ => ⟨S8x512, .f32⟩
  | .local _ .vmem, ⟨5, _⟩ => ⟨S8x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v140 : BitVec 1 := Scalar.cmpi .eq arg2 c3_i32
  let v141 : BitVec 32 := Scalar.extui v140
  let c0_i32_72 : BitVec 32 := 0#32
  let v142 : BitVec 1 := Scalar.cmpi .ne v141 c0_i32_72
  v142

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  slices_S1024x1024_o0_0_S1024x128 : S1024x1024.Slices ![0, 0] S1024x128
  inb_S1024x512_S128x512_0_0 : ∀ a, (![0, 0] : Fin 2 → Nat) a + S128x512.size a ≤ S1024x512.size a
  h_S128x512 : 0 < S128x512.numel
  inb_S8x512_S1x512_0_0 : ∀ a, (![0, 0] : Fin 2 → Nat) a + S1x512.size a ≤ S8x512.size a
  h_S1x512 : 0 < S1x512.numel
  broadcasts_S1x512_S128x512 : S1x512.Broadcasts S128x512
  bitsLt_bf16_f32 : FTy.bits .bf16 < FTy.bits .f32
  slices_S1024x1024_o0_128_S1024x128 : S1024x1024.Slices ![0, 128] S1024x128
  inb_S1024x512_S128x512_128_0 : ∀ a, (![128, 0] : Fin 2 → Nat) a + S128x512.size a ≤ S1024x512.size a
  inb_S8x512_S1x512_1_0 : ∀ a, (![1, 0] : Fin 2 → Nat) a + S1x512.size a ≤ S8x512.size a
  slices_S1024x1024_o0_256_S1024x128 : S1024x1024.Slices ![0, 256] S1024x128
  inb_S1024x512_S128x512_256_0 : ∀ a, (![256, 0] : Fin 2 → Nat) a + S128x512.size a ≤ S1024x512.size a
  inb_S8x512_S1x512_2_0 : ∀ a, (![2, 0] : Fin 2 → Nat) a + S1x512.size a ≤ S8x512.size a
  slices_S1024x1024_o0_384_S1024x128 : S1024x1024.Slices ![0, 384] S1024x128
  inb_S1024x512_S128x512_384_0 : ∀ a, (![384, 0] : Fin 2 → Nat) a + S128x512.size a ≤ S1024x512.size a
  inb_S8x512_S1x512_3_0 : ∀ a, (![3, 0] : Fin 2 → Nat) a + S1x512.size a ≤ S8x512.size a
  slices_S1024x1024_o0_512_S1024x128 : S1024x1024.Slices ![0, 512] S1024x128
  inb_S1024x512_S128x512_512_0 : ∀ a, (![512, 0] : Fin 2 → Nat) a + S128x512.size a ≤ S1024x512.size a
  inb_S8x512_S1x512_4_0 : ∀ a, (![4, 0] : Fin 2 → Nat) a + S1x512.size a ≤ S8x512.size a
  slices_S1024x1024_o0_640_S1024x128 : S1024x1024.Slices ![0, 640] S1024x128
  inb_S1024x512_S128x512_640_0 : ∀ a, (![640, 0] : Fin 2 → Nat) a + S128x512.size a ≤ S1024x512.size a
  inb_S8x512_S1x512_5_0 : ∀ a, (![5, 0] : Fin 2 → Nat) a + S1x512.size a ≤ S8x512.size a
  slices_S1024x1024_o0_768_S1024x128 : S1024x1024.Slices ![0, 768] S1024x128
  inb_S1024x512_S128x512_768_0 : ∀ a, (![768, 0] : Fin 2 → Nat) a + S128x512.size a ≤ S1024x512.size a
  inb_S8x512_S1x512_6_0 : ∀ a, (![6, 0] : Fin 2 → Nat) a + S1x512.size a ≤ S8x512.size a
  slices_S1024x1024_o0_896_S1024x128 : S1024x1024.Slices ![0, 896] S1024x128
  inb_S1024x512_S128x512_896_0 : ∀ a, (![896, 0] : Fin 2 → Nat) a + S128x512.size a ≤ S1024x512.size a
  inb_S8x512_S1x512_7_0 : ∀ a, (![7, 0] : Fin 2 → Nat) a + S1x512.size a ≤ S8x512.size a
  inb_S1x512_S1x512_0_0 : ∀ a, (![0, 0] : Fin 2 → Nat) a + S1x512.size a ≤ S1x512.size a
  broadcasts_S1024x1_S1024x512 : S1024x1.Broadcasts S1024x512
  broadcasts_S1x512_S1024x512 : S1x512.Broadcasts S1024x512
  shapeCasts_S1x512_S1x512 : S1x512.ShapeCasts S1x512
  shapeCasts_S8192x4096_S4x2048x4096 : S8192x4096.ShapeCasts S4x2048x4096
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x4096.size a
  hwx0_2 : ∀ i : grid0.Coords, EltTy.bits .f32 = 32 ∨ (Rect.block (s := S32x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096 : Shape := ⟨2, ![32, 4096]⟩
abbrev S1x4096 : Shape := ⟨2, ![1, 4096]⟩
abbrev S4096 : Shape := ⟨1, ![4096]⟩
abbrev S32x128x4096 : Shape := ⟨3, ![32, 128, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S1x4096, .f32⟩
  | .hbm, ⟨4, _⟩ => ⟨S4096, .f32⟩
  | .hbm, ⟨5, _⟩ => ⟨S32x128x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  bcast_S_S4096x4096 : S_.BroadcastsInDim S4096x4096 (![] : Fin 0 → Fin S4096x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  shapeCasts_S1x4096_S4096 : S1x4096.ShapeCasts S4096
  bcast_S4096_S1x1x4096_2 : S4096.BroadcastsInDim S1x1x4096 (![2] : Fin 1 → Fin S1x1x4096.rank)
  bcast_S4x2048x1_S4x2048x4096_0_1_2 : S4x2048x1.BroadcastsInDim S4x2048x4096 (![0, 1, 2] : Fin 3 → Fin S4x2048x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.Spec.lean ====
/-
  The function both programs compute, over the extended reals.

  A weight matrix of 4096 rows is stored as integers `q`; row `k` belongs to group `k / 128`, and every group has one
  scale per column.  The weight is `(q - 8) · scale`.  For an activation row `x` (4096 entries) the output entry in
  column `n` is

      (Σ_k x_k · w_{k,n}  +  (Σ_k x_k) · u_n)  +  bias_n ,

  the matrix product, a rank-one correction by the row's sum, and a bias, added in this order.  Nothing here uses more
  than the commutative-monoid laws of the addition, so no entry needs to be finite.
-/
import Idealize.ShloMosaic.PureOps.Ideal
import Idealize.ShloMosaic.Lib.ValueIdx

noncomputable section

namespace Cert.Spec

open Idealize.ShloMosaic Idealize.ShloMosaic.ValueIdx

/-- The group of weight row `k`: rows are grouped 128 at a time. -/
def grp (k : Fin 4096) : Fin 32 := ⟨k.val / 128, by have := k.isLt; omega⟩

/-- The weight at row `k`, column `n`: the stored integer less the zero point eight, times the scale of the row's group. -/
def deq (wq : (⟨2, ![4096, 4096]⟩ : Shape).Idx → BitVec 32) (sc : (⟨2, ![32, 4096]⟩ : Shape).Idx → EReal)
    (k n : Fin 4096) : EReal :=
  ((FloatOps.sitofp (F := Ideal) .f32 (wq (ix2 k n)) : EReal) - Ideal.ofBits .f32 0x41000000#32) * sc (ix2 (grp k) n)

/-- One output entry from an activation row `xr`, a weight column `w`, and the column's correction and bias entries. -/
def entry (xr w : Fin 4096 → EReal) (un bn : EReal) : EReal :=
  ((∑ k : Fin 4096, xr k * w k) + (∑ k : Fin 4096, xr k) * un) + bn

/-- The result with the activations laid out as 8192 rows. -/
def G2 (X : (⟨2, ![8192, 4096]⟩ : Shape).Idx → EReal) (wq : (⟨2, ![4096, 4096]⟩ : Shape).Idx → BitVec 32)
    (sc : (⟨2, ![32, 4096]⟩ : Shape).Idx → EReal) (u : (⟨2, ![1, 4096]⟩ : Shape).Idx → EReal)
    (B : (⟨2, ![1, 4096]⟩ : Shape).Idx → EReal) : (⟨2, ![8192, 4096]⟩ : Shape).Idx → EReal :=
  fun j => entry (fun k => X (ix2 (j 0) k)) (fun k => deq wq sc k (j 1)) (u (ix2 (0 : Fin 1) (j 1))) (B (ix2 (0 : Fin 1) (j 1)))

/-- The result with the activations laid out as 4 batches of 2048 rows. -/
def G3 (x : (⟨3, ![4, 2048, 4096]⟩ : Shape).Idx → EReal) (wq : (⟨2, ![4096, 4096]⟩ : Shape).Idx → BitVec 32)
    (sc : (⟨2, ![32, 4096]⟩ : Shape).Idx → EReal) (u : (⟨2, ![1, 4096]⟩ : Shape).Idx → EReal)
    (b : (⟨1, ![4096]⟩ : Shape).Idx → EReal) : (⟨3, ![4, 2048, 4096]⟩ : Shape).Idx → EReal :=
  fun i => entry (fun k => x (ix3 (i 0) (i 1) k)) (fun k => deq wq sc k (i 2)) (u (ix2 (0 : Fin 1) (i 2))) (b (ix1 (i 2)))

end Cert.Spec

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.Body.lean ====
/-
  The arithmetic of one grid step, entry by entry.

  At a grid step the kernel holds a block `x0` of 1024 activation rows by 1024 of their columns, the matching 1024 rows
  of the integer weights `x1` (512 columns wide) and their 8 rows of scales `x2` (one per group of 128 weight rows).
  It visits the 8 groups one after the other; for group `g` it forms the 1024 × 512 product of columns
  `128 g … 128 g + 127` of `x0` with the rescaled weights `(q - 8) · scale_g` of the group's 128 rows, and adds it into an
  accumulator.  Beside that it adds each activation row's sum over the 1024 columns into a column of running sums.
  On the last step the output block is `(accumulator + sums · u) + bias`.

  Read at an entry, the eight group products are eight consecutive stretches of one sum over the block's 1024
  columns, so the accumulator's entry grows by that sum: only associativity of the addition is used.
-/
import proofs.«155571_j33260226740741_1_alg».proof.Proof.Gen.KernelIdeal.Skeleton
import proofs.«155571_j33260226740741_1_alg».proof.Proof.LibBlockedSum
import proofs.«155571_j33260226740741_1_alg».proof.Proof.LibColumnForms
import proofs.«155571_j33260226740741_1_alg».proof.Proof.LibRowForms
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

variable {F : FTy → Type} [FloatOps F]

/-! ## The step's three results as functions of the blocks -/

/-- The accumulator after a step: the eight group products added, one after the other, to what it held. -/
def accStep (x0 : Vec F S1024x1024 .f32) (x1 : Vec F S1024x512 .i32) (x2 : Vec F S8x512 .f32)
    (acc : Vec F S1024x512 .f32) : FVec F S1024x512 .f32 :=
  k0_pay1
    (k0_pay19 (k0_pay5 x0) (View.ld x1 (Rect.unit ![896, 0] S128x512.size inb_S1024x512_S128x512_896_0))
      (View.ld x2 (Rect.unit ![7, 0] S1x512.size inb_S8x512_S1x512_7_0))
      (k0_pay18 (k0_pay5 x0) (View.ld x1 (Rect.unit ![768, 0] S128x512.size inb_S1024x512_S128x512_768_0))
        (View.ld x2 (Rect.unit ![6, 0] S1x512.size inb_S8x512_S1x512_6_0))
        (k0_pay17
          (k0_pay14 (k0_pay5 x0) (View.ld x1 (Rect.unit ![512, 0] S128x512.size inb_S1024x512_S128x512_512_0))
            (View.ld x2 (Rect.unit ![4, 0] S1x512.size inb_S8x512_S1x512_4_0))
            (k0_pay13 (k0_pay11 (k0_pay5 x0))
              (k0_pay12 (View.ld x1 (Rect.unit ![384, 0] S128x512.size inb_S1024x512_S128x512_384_0))
                (View.ld x2 (Rect.unit ![3, 0] S1x512.size inb_S8x512_S1x512_3_0)))
              (k0_pay10 (k0_pay5 x0) (View.ld x1 (Rect.unit ![256, 0] S128x512.size inb_S1024x512_S128x512_256_0))
                (View.ld x2 (Rect.unit ![2, 0] S1x512.size inb_S8x512_S1x512_2_0))
                (k0_pay9 (k0_pay8 x0) (View.ld x1 (Rect.unit ![128, 0] S128x512.size inb_S1024x512_S128x512_128_0))
                  (View.ld x2 (Rect.unit ![1, 0] S1x512.size inb_S8x512_S1x512_1_0))
                  (k0_pay7 x0 (View.ld x1 (Rect.unit ![0, 0] S128x512.size inb_S1024x512_S128x512_0_0))
                    (View.ld x2 (Rect.unit ![0, 0] S1x512.size inb_S8x512_S1x512_0_0)) acc)))))
          (k0_pay15 (k0_pay5 x0))
          (k0_pay16 (View.ld x1 (Rect.unit ![640, 0] S128x512.size inb_S1024x512_S128x512_640_0))
            (View.ld x2 (Rect.unit ![5, 0] S1x512.size inb_S8x512_S1x512_5_0)))
          (constant S1024x512 .f32 0x00000000#32))))

/-- One group's product: 128 columns of activations against the group's rescaled weights, from a zero start. -/
def grp (xs : FVec F S1024x128 .f32) (w : Vec F S128x512 .i32) (s : Vec F S1x512 .f32) : FVec F S1024x512 .f32 :=
  matmul dot_S1024x128_S128x512_S1024x512_1_0_0_1_n_n none (truncf .bf16 xs bitsLt_bf16_f32)
    (truncf .bf16 (mulf (subf (sitofp .f32 w) (broadcast S128x512 (Scalar.ofBits .f32 0x41000000#32)))
      (broadcastTo S128x512 s broadcasts_S1x512_S128x512)) bitsLt_bf16_f32)
    (constant S1024x512 .f32 0x00000000#32)

/-- The 128 activation columns of group `g`, cut from the block at column `o = 128 g`. -/
def cols (o : ℕ) (hs : S1024x1024.Slices ![0, o] S1024x128) (x0 : Vec F S1024x1024 .f32) : FVec F S1024x128 .f32 :=
  extractStridedSlice S1024x128 ![0, o] (k0_pay5 x0) hs

/-! Each update of the accumulator is "add one group's product". -/

theorem pay7_eq (x0 : Vec F S1024x1024 .f32) (w : Vec F S128x512 .i32) (s : Vec F S1x512 .f32) (acc : Vec F S1024x512 .f32) :
    k0_pay7 x0 w s acc = shapeCast S1024x512 (addf acc (grp (cols 0 slices_S1024x1024_o0_0_S1024x128 x0) w s)) shapeCasts_S1024x512_S1024x512 := rfl
theorem pay9_eq (x0 : Vec F S1024x1024 .f32) (w : Vec F S128x512 .i32) (s : Vec F S1x512 .f32) (acc : Vec F S1024x512 .f32) :
    k0_pay9 (k0_pay8 x0) w s acc = shapeCast S1024x512 (addf acc (grp (cols 128 slices_S1024x1024_o0_128_S1024x128 x0) w s)) shapeCasts_S1024x512_S1024x512 := rfl
theorem pay10_eq (x0 : Vec F S1024x1024 .f32) (w : Vec F S128x512 .i32) (s : Vec F S1x512 .f32) (acc : Vec F S1024x512 .f32) :
    k0_pay10 (k0_pay5 x0) w s acc = shapeCast S1024x512 (addf acc (grp (cols 256 slices_S1024x1024_o0_256_S1024x128 x0) w s)) shapeCasts_S1024x512_S1024x512 := rfl
theorem pay13_eq (x0 : Vec F S1024x1024 .f32) (w : Vec F S128x512 .i32) (s : Vec F S1x512 .f32) (acc : Vec F S1024x512 .f32) :
    k0_pay13 (k0_pay11 (k0_pay5 x0)) (k0_pay12 w s) acc = shapeCast S1024x512 (addf acc (grp (cols 384 slices_S1024x1024_o0_384_S1024x128 x0) w s)) shapeCasts_S1024x512_S1024x512 := rfl
theorem pay14_eq (x0 : Vec F S1024x1024 .f32) (w : Vec F S128x512 .i32) (s : Vec F S1x512 .f32) (acc : Vec F S1024x512 .f32) :
    k0_pay14 (k0_pay5 x0) w s acc = shapeCast S1024x512 (addf acc (grp (cols 512 slices_S1024x1024_o0_512_S1024x128 x0) w s)) shapeCasts_S1024x512_S1024x512 := rfl
theorem pay17_eq (x0 : Vec F S1024x1024 .f32) (w : Vec F S128x512 .i32) (s : Vec F S1x512 .f32) (acc : Vec F S1024x512 .f32) :
    k0_pay17 acc (k0_pay15 (k0_pay5 x0)) (k0_pay16 w s) (constant S1024x512 .f32 0x00000000#32) = shapeCast S1024x512 (addf acc (grp (cols 640 slices_S1024x1024_o0_640_S1024x128 x0) w s)) shapeCasts_S1024x512_S1024x512 := rfl
theorem pay18_eq (x0 : Vec F S1024x1024 .f32) (w : Vec F S128x512 .i32) (s : Vec F S1x512 .f32) (acc : Vec F S1024x512 .f32) :
    k0_pay18 (k0_pay5 x0) w s acc = shapeCast S1024x512 (addf acc (grp (cols 768 slices_S1024x1024_o0_768_S1024x128 x0) w s)) shapeCasts_S1024x512_S1024x512 := rfl
theorem pay19_eq (x0 : Vec F S1024x1024 .f32) (w : Vec F S128x512 .i32) (s : Vec F S1x512 .f32) (acc : Vec F S1024x512 .f32) :
    k0_pay1 (k0_pay19 (k0_pay5 x0) w s acc) = shapeCast S1024x512 (addf acc (grp (cols 896 slices_S1024x1024_o0_896_S1024x128 x0) w s)) shapeCasts_S1024x512_S1024x512 := rfl

/-! ## One group's product at an entry -/

theorem lhs_row (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem rhs_col (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- Entry `(r, n)` of a group's product is the sum over the group's 128 positions `t` of the activation at `(r, t)`
    times the rescaled weight `(q_{t,n} - 8) · scale_n`. -/
theorem grp_apply (xs : FVec Ideal S1024x128 .f32) (w : Vec Ideal S128x512 .i32) (s : Vec Ideal S1x512 .f32)
    (r : Fin 1024) (n : Fin 512) :
    grp (F := Ideal) xs w s (ix2 r n)
      = ∑ t : Fin 128, xs (ix2 r t) * ((FloatOps.sitofp (F := Ideal) .f32 (w (ix2 t n)) - Ideal.ofBits .f32 0x41000000#32) * s (ix2 (0 : Fin 1) n)) := by
  unfold grp
  simp only [matmul]
  rw [Ideal.matmul_constant_zero_apply, ← Equiv.sum_comp (ValueIdx.contrEquiv1 dot_S1024x128_S128x512_S1024x512_1_0_0_1_n_n 128 rfl rfl).symm]
  refine Finset.sum_congr rfl fun t _ => ?_
  have hk := ValueIdx.contrEquiv1_symm_val dot_S1024x128_S128x512_S1024x512_1_0_0_1_n_n 128 rfl rfl t
  have el : dot_S1024x128_S128x512_S1024x512_1_0_0_1_n_n.lhsIdx (ix2 r n) ((ValueIdx.contrEquiv1 dot_S1024x128_S128x512_S1024x512_1_0_0_1_n_n 128 rfl rfl).symm t) = ix2 r t := funext fun a => Fin.ext (by
    match a with
    | ⟨0, _⟩ => exact lhs_row _ _
    | ⟨1, _⟩ => exact (dot_S1024x128_S128x512_S1024x512_1_0_0_1_n_n.lhsIdx_val_of_single rfl _ _).trans hk)
  have er : dot_S1024x128_S128x512_S1024x512_1_0_0_1_n_n.rhsIdx (ix2 r n) ((ValueIdx.contrEquiv1 dot_S1024x128_S128x512_S1024x512_1_0_0_1_n_n 128 rfl rfl).symm t) = ix2 t n := funext fun a => Fin.ext (by
    match a with
    | ⟨0, _⟩ => exact (dot_S1024x128_S128x512_S1024x512_1_0_0_1_n_n.rhsIdx_val_of_single rfl _ _).trans hk
    | ⟨1, _⟩ => exact rhs_col _ _)
  rw [el, er]
  simp only [truncf_apply, mulf_apply, subf_apply, sitofp_apply, broadcast_apply]
  rw [broadcastTo_1b_ab_apply]
  rfl

/-! ## The accumulator's entry grows by the block's sum over its 1024 columns -/

/-- The summand at column position `q` of the block, for output entry `(r, n)`: the activation at `(r, q)` times the
    rescaled weight of row `q`, whose scale is that of the row's group `q / 128`. -/
def term (x0 : Vec Ideal S1024x1024 .f32) (x1 : Vec Ideal S1024x512 .i32) (x2 : Vec Ideal S8x512 .f32)
    (r : Fin 1024) (n : Fin 512) (q : Fin 1024) : EReal :=
  x0 (ix2 r q) * ((FloatOps.sitofp (F := Ideal) .f32 (x1 (ix2 q n)) - Ideal.ofBits .f32 0x41000000#32)
    * x2 (ix2 (⟨q.val / 128, by have := q.isLt; omega⟩ : Fin 8) n))

theorem h1024 : 0 < 1024 := by norm_num

/-- Group `g`'s product at an entry is the block's sum over its `g`-th stretch of 128 columns: the group's activation
    columns, weight rows and scale row are those at positions `128 g + t`. -/
theorem grp_block (g : ℕ) (hg : g < 8) (o : ℕ) (ho : o = 128 * g)
    (hs : S1024x1024.Slices ![0, o] S1024x128)
    (hw : ∀ a, (![o, 0] : Fin 2 → ℕ) a + S128x512.size a ≤ S1024x512.size a)
    (hc : ∀ a, (![g, 0] : Fin 2 → ℕ) a + S1x512.size a ≤ S8x512.size a)
    (x0 : Vec Ideal S1024x1024 .f32) (x1 : Vec Ideal S1024x512 .i32) (x2 : Vec Ideal S8x512 .f32)
    (r : Fin 1024) (n : Fin 512) :
    grp (F := Ideal) (cols o hs x0) (View.ld x1 (Rect.unit ![o, 0] S128x512.size hw))
        (View.ld x2 (Rect.unit ![g, 0] S1x512.size hc)) (ix2 r n)
      = BlockedSum.blockSum h1024 128 (term x0 x1 x2 r n) g := by
  rw [grp_apply]
  unfold BlockedSum.blockSum
  refine Finset.sum_congr rfl fun t _ => ?_
  have hv : (BlockedSum.blkIdx h1024 128 g t).val = 128 * g + t.val :=
    BlockedSum.blkIdx_val h1024 (by norm_num : 8 * 128 = 1024) hg t
  have ht := t.isLt
  unfold term
  have e0 : cols o hs x0 (ix2 r t) = x0 (ix2 r (BlockedSum.blkIdx h1024 128 g t)) := by
    unfold cols
    rw [slice2_axis1_apply o (k0_pay5 x0) hs r t (BlockedSum.blkIdx h1024 128 g t) (by rw [hv, ho])]
    exact congrFun (shapeCast_self x0 _) _
  have e1 : View.ld x1 (Rect.unit ![o, 0] S128x512.size hw) (ix2 t n) = x1 (ix2 (BlockedSum.blkIdx h1024 128 g t) n) :=
    congrArg x1 (funext fun a => Fin.ext (by
      match a with
      | ⟨0, _⟩ => show o + 1 * t.val = (BlockedSum.blkIdx h1024 128 g t).val; rw [hv, ho]; omega
      | ⟨1, _⟩ => show 0 + 1 * n.val = n.val; omega))
  have e2 : View.ld x2 (Rect.unit ![g, 0] S1x512.size hc) (ix2 (0 : Fin 1) n)
      = x2 (ix2 (⟨(BlockedSum.blkIdx h1024 128 g t).val / 128, by have := (BlockedSum.blkIdx h1024 128 g t).isLt; omega⟩ : Fin 8) n) :=
    congrArg x2 (funext fun a => Fin.ext (by
      match a with
      | ⟨0, _⟩ => show g + 1 * 0 = (BlockedSum.blkIdx h1024 128 g t).val / 128; rw [hv]; omega
      | ⟨1, _⟩ => show 0 + 1 * n.val = n.val; omega))
  rw [e0, e1, e2]

/-- Eight consecutive stretches of 128, added one after the other to `a`, are `a` plus the whole sum over 1024. -/
theorem eight_blocks {M : Type*} [AddCommMonoid M] (a : M) (f : Fin 1024 → M) :
    a + BlockedSum.blockSum h1024 128 f 0 + BlockedSum.blockSum h1024 128 f 1 + BlockedSum.blockSum h1024 128 f 2
        + BlockedSum.blockSum h1024 128 f 3 + BlockedSum.blockSum h1024 128 f 4 + BlockedSum.blockSum h1024 128 f 5
        + BlockedSum.blockSum h1024 128 f 6 + BlockedSum.blockSum h1024 128 f 7
      = a + ∑ q : Fin 1024, f q := by
  rw [← BlockedSum.partialSum_last h1024 (by norm_num : 8 * 128 = 1024) f (by norm_num : 7 + 1 = 8)]
  simp only [BlockedSum.partialSum, Finset.sum_range_succ, Finset.sum_range_zero, zero_add, add_assoc]

/-- The accumulator's entry after a step: what it held plus the block's sum over its 1024 columns. -/
theorem accStep_apply (x0 : Vec Ideal S1024x1024 .f32) (x1 : Vec Ideal S1024x512 .i32) (x2 : Vec Ideal S8x512 .f32)
    (acc : Vec Ideal S1024x512 .f32) (r : Fin 1024) (n : Fin 512) :
    accStep (F := Ideal) x0 x1 x2 acc (ix2 r n) = acc (ix2 r n) + ∑ q : Fin 1024, term x0 x1 x2 r n q := by
  unfold accStep
  rw [pay19_eq, pay18_eq, pay17_eq, pay14_eq, pay13_eq, pay10_eq, pay9_eq, pay7_eq]
  simp only [shapeCast_self, addf_apply]
  rw [grp_block 0 (by norm_num) 0 rfl, grp_block 1 (by norm_num) 128 rfl, grp_block 2 (by norm_num) 256 rfl,
    grp_block 3 (by norm_num) 384 rfl, grp_block 4 (by norm_num) 512 rfl, grp_block 5 (by norm_num) 640 rfl,
    grp_block 6 (by norm_num) 768 rfl, grp_block 7 (by norm_num) 896 rfl]
  exact eight_blocks _ _

/-! ## The running row sums, the output block, and the two zero starts -/

/-- The running sum of row `r` after a step: what it held plus the row's sum over the block's 1024 columns. -/
theorem rowsum_apply (x0 : Vec Ideal S1024x1024 .f32) (xs : Vec Ideal S1024x1 .f32) (r : Fin 1024) :
    k0_pay6 (F := Ideal) x0 xs (ix2 r (0 : Fin 1)) = xs (ix2 r (0 : Fin 1)) + ∑ q : Fin 1024, x0 (ix2 r q) := by
  unfold k0_pay6 k0_pay5
  simp only [shapeCast_self, addf_apply]
  rw [Cert.ColumnForms.shapeCast_a_a1_apply, Cert.RowForms.multiReduction_add_rows]

/-- The output block's entry: `(accumulator + row sum · u) + bias`. -/
theorem out_apply (acc : Vec Ideal S1024x512 .f32) (xs : Vec Ideal S1024x1 .f32) (u b : Vec Ideal S1x512 .f32)
    (r : Fin 1024) (n : Fin 512) :
    k0_pay2 (F := Ideal) acc xs u b (ix2 r n)
      = (acc (ix2 r n) + xs (ix2 r (0 : Fin 1)) * u (ix2 (0 : Fin 1) n)) + b (ix2 (0 : Fin 1) n) := by
  unfold k0_pay2
  simp only [shapeCast_self, addf_apply, mulf_apply]
  rw [Cert.ColumnForms.broadcastTo_a1_ab_apply, broadcastTo_1b_ab_apply, broadcastTo_1b_ab_apply]

/-- The accumulator starts at zero. -/
theorem acc_start (j : S1024x512.Idx) : k0_pay3 (F := Ideal) j = 0 := by
  unfold k0_pay3
  simp only [shapeCast_self, broadcast_apply]
  exact Ideal.ofBits_zero_f32

/-- The row sums start at zero. -/
theorem rowsum_start (j : S1024x1.Idx) : k0_pay4 (F := Ideal) j = 0 := by
  unfold k0_pay4
  simp only [shapeCast_self, broadcast_apply]
  exact Ideal.ofBits_zero_f32

end Cert.KernelIdeal.Body

end
-- ==== Proof.LibCoveredLoad.lean ====
/-
  A load of a whole buffer after a store that covered all of it.

  A buffer's contents are kept as the list of the stores made into it, newest first, each a rectangle and the
  values put there.  If the newest store covered the whole buffer, then a load of the whole buffer reads exactly the
  values of that store, whatever the older stores were: an accumulator that is overwritten whole and then read back.
-/
import Idealize.ShloMosaic.Lib.Pipeline.Value

noncomputable section

namespace Idealize.ShloMosaic.View

variable {Val : EltTy → Type} {S : Shape} {e : EltTy}

/-- The whole-buffer load after a newest store through the whole-buffer rectangle reads that store's values. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), by
    show y ∈ (Rect.whole S).set; rw [Rect.set_whole]; exact Finset.mem_univ y⟩), canon_cons_unit_zero rfl, ld_unit_zero rfl]

end Idealize.ShloMosaic.View

end
-- ==== Proof.Pieces.lean ====
/-
  What each kind of grid step leaves behind, as functions of the blocks it loads.

  A first step along the contracted axis starts the accumulator and the running row sums from zero; a later step
  continues from what the step before left; the last step also writes the output block from the finished
  accumulator and row sums.  Every store in the body overwrites its whole buffer, so what a buffer holds afterwards is
  the value of the last store into it, and what a load reads is the value of the newest store before it.
-/
import proofs.«155571_j33260226740741_1_alg».proof.Proof.Gen.KernelIdeal.Frame
import proofs.«155571_j33260226740741_1_alg».proof.Proof.Body
import proofs.«155571_j33260226740741_1_alg».proof.Proof.LibCoveredLoad

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer access are all zero. -/
theorem hz : (![0, 0] : Fin 2 → Nat) = fun _ => 0 := funext fun a => by fin_cases a <;> rfl

/-- A first step leaves the accumulator at the step's eight group products added to zero. -/
theorem first_acc (c : Dev nD) (i : grid0.Coords) (arg3 : Memref sig .tc .vmem S1024x1024 .f32) (harg3 : arg3.IsWhole) (arg4 : Memref sig .tc .vmem S1024x512 .i32) (harg4 : arg4.IsWhole) (arg5 : Memref sig .tc .vmem S8x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x1024 .f32) (x1 : Vec F S1024x512 .i32) (x2 : Vec F S8x512 .f32) (x3 : Vec F S1x512 .f32) (x4 : Vec F S1x512 .f32) :
    sout0_A_0 c i arg3 harg3 arg4 harg4 arg5 harg5 arg6 harg6 arg7 harg7 arg8 harg8 arg9 harg9 arg10 harg10 hc0 hc1 x0 x1 x2 x3 x4 = Body.accStep x0 x1 x2 k0_pay3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  rw [View.canon_cons_unit_zero hz]
  sl_unfold_words
  repeat rw [View.readCov_cons_unit_zero _ hz]
  simp only [View.readAt_eq_ld, harg3.read_unread, harg4.read_unread, harg5.read_unread, harg6.read_unread, harg7.read_unread,
    harg8.read_unread, harg9.read_unread, harg10.read_unread, View.ld_unit_zero (S := S1024x1024) hz,
    View.ld_unit_zero (S := S1024x512) hz, View.ld_unit_zero (S := S1024x1) hz, View.ld_unit_zero (S := S1x512) hz]
  rfl

/-- A first step leaves the running row sums at the block's row sums added to zero. -/
theorem first_rowsum (c : Dev nD) (i : grid0.Coords) (arg3 : Memref sig .tc .vmem S1024x1024 .f32) (harg3 : arg3.IsWhole) (arg4 : Memref sig .tc .vmem S1024x512 .i32) (harg4 : arg4.IsWhole) (arg5 : Memref sig .tc .vmem S8x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x1024 .f32) (x1 : Vec F S1024x512 .i32) (x2 : Vec F S8x512 .f32) (x3 : Vec F S1x512 .f32) (x4 : Vec F S1x512 .f32) :
    sout0_A_1 c i arg3 harg3 arg4 harg4 arg5 harg5 arg6 harg6 arg7 harg7 arg8 harg8 arg9 harg9 arg10 harg10 hc0 hc1 x0 x1 x2 x3 x4 = k0_pay6 x0 k0_pay4 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  rw [View.canon_cons_unit_zero hz]
  sl_unfold_words
  repeat rw [View.readCov_cons_unit_zero _ hz]
  simp only [View.readAt_eq_ld, harg3.read_unread, harg4.read_unread, harg5.read_unread, harg6.read_unread, harg7.read_unread,
    harg8.read_unread, harg9.read_unread, harg10.read_unread, View.ld_unit_zero (S := S1024x1024) hz,
    View.ld_unit_zero (S := S1024x512) hz, View.ld_unit_zero (S := S1024x1) hz, View.ld_unit_zero (S := S1x512) hz]

/-- A middle step leaves the accumulator at the step's eight group products added to what the step before left. -/
theorem later_acc (c : Dev nD) (i : grid0.Coords) (arg3 : Memref sig .tc .vmem S1024x1024 .f32) (harg3 : arg3.IsWhole) (arg4 : Memref sig .tc .vmem S1024x512 .i32) (harg4 : arg4.IsWhole) (arg5 : Memref sig .tc .vmem S8x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x1024 .f32) (x1 : Vec F S1024x512 .i32) (x2 : Vec F S8x512 .f32) (x3 : Vec F S1x512 .f32) (x4 : Vec F S1x512 .f32) (xs0 : Vec F S1024x512 .f32) (xs1 : Vec F S1024x1 .f32) :
    sout0_B_0 c i arg3 harg3 arg4 harg4 arg5 harg5 arg6 harg6 arg7 harg7 arg8 harg8 arg9 harg9 arg10 harg10 hc0 hc1 x0 x1 x2 x3 x4 xs0 xs1 = Body.accStep x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_cons_unit_zero hz]
  sl_unfold_words
  repeat rw [View.readCov_cons_unit_zero _ hz]
  simp only [View.readAt_eq_ld, harg3.read_unread, harg4.read_unread, harg5.read_unread, harg6.read_unread, harg7.read_unread,
    harg8.read_unread, harg9.read_unread, harg10.read_unread, View.ld_unit_zero (S := S1024x1024) hz,
    View.ld_unit_zero (S := S1024x512) hz, View.ld_unit_zero (S := S1024x1) hz, View.ld_unit_zero (S := S1x512) hz]
  rfl

/-- A middle step leaves the running row sums at the block's row sums added to what the step before left. -/
theorem later_rowsum (c : Dev nD) (i : grid0.Coords) (arg3 : Memref sig .tc .vmem S1024x1024 .f32) (harg3 : arg3.IsWhole) (arg4 : Memref sig .tc .vmem S1024x512 .i32) (harg4 : arg4.IsWhole) (arg5 : Memref sig .tc .vmem S8x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x1024 .f32) (x1 : Vec F S1024x512 .i32) (x2 : Vec F S8x512 .f32) (x3 : Vec F S1x512 .f32) (x4 : Vec F S1x512 .f32) (xs0 : Vec F S1024x512 .f32) (xs1 : Vec F S1024x1 .f32) :
    sout0_B_1 c i arg3 harg3 arg4 harg4 arg5 harg5 arg6 harg6 arg7 harg7 arg8 harg8 arg9 harg9 arg10 harg10 hc0 hc1 x0 x1 x2 x3 x4 xs0 xs1 = k0_pay6 x0 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_cons_unit_zero hz]
  sl_unfold_words
  repeat rw [View.readCov_cons_unit_zero _ hz]
  simp only [View.readAt_eq_ld, harg3.read_unread, harg4.read_unread, harg5.read_unread, harg6.read_unread, harg7.read_unread,
    harg8.read_unread, harg9.read_unread, harg10.read_unread, View.ld_unit_zero (S := S1024x1024) hz,
    View.ld_unit_zero (S := S1024x512) hz, View.ld_unit_zero (S := S1024x1) hz, View.ld_unit_zero (S := S1x512) hz]

/-- The last step writes the output block from the finished accumulator and row sums: \`(acc + sums · u) + bias\`. -/
theorem last_out (c : Dev nD) (i : grid0.Coords) (arg3 : Memref sig .tc .vmem S1024x1024 .f32) (harg3 : arg3.IsWhole) (arg4 : Memref sig .tc .vmem S1024x512 .i32) (harg4 : arg4.IsWhole) (arg5 : Memref sig .tc .vmem S8x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x1024 .f32) (x1 : Vec F S1024x512 .i32) (x2 : Vec F S8x512 .f32) (x3 : Vec F S1x512 .f32) (x4 : Vec F S1x512 .f32) (xs0 : Vec F S1024x512 .f32) (xs1 : Vec F S1024x1 .f32) :
    out0_C_5 c i arg3 harg3 arg4 harg4 arg5 harg5 arg6 harg6 arg7 harg7 arg8 harg8 arg9 harg9 arg10 harg10 hc0 hc1 x0 x1 x2 x3 x4 xs0 xs1 = k0_pay2 (Body.accStep x0 x1 x2 xs0) (k0_pay6 x0 xs1) x3 x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  rw [View.canon_cons_unit_zero hz]
  sl_unfold_words
  repeat rw [View.readCov_cons_unit_zero _ hz]
  simp only [View.readAt_eq_ld, harg3.read_unread, harg4.read_unread, harg5.read_unread, harg6.read_unread, harg7.read_unread,
    harg8.read_unread, harg9.read_unread, harg10.read_unread, View.ld_unit_zero (S := S1024x1024) hz,
    View.ld_unit_zero (S := S1024x512) hz, View.ld_unit_zero (S := S1024x1) hz, View.ld_unit_zero (S := S1x512) hz]
  rfl

end Cert.KernelIdeal.Pieces

end
-- ==== Proof.Blocks.lean ====
/-
  The blocks the grid visits.

  The grid has 8 × 8 × 4 points, visited in row-major order: point number `p` works on row block `p / 32` (1024
  activation rows), column block `p / 4 % 8` (512 output columns) and step `p % 4` along the contracted axis (1024 of
  its 4096 positions).  Each operand's block at a point is the part of its array at those offsets: an entry of a block,
  read at local coordinates, is the array's entry at block index × block size + local coordinate on each axis.
-/
import proofs.«155571_j33260226740741_1_alg».proof.Proof.Gen.KernelIdeal.Frame
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid has 256 points. -/
theorem lt256 (t : Fin cfg0.N) : t.val < 256 := lt_of_lt_of_eq t.isLt N_0

/-- Each window's block index at point number `p`, decided over the grid. -/
theorem idx_facts : ∀ t : Fin cfg0.N,
    win0_0.index t (0 : Fin 2) = t.val / 32 ∧ win0_0.index t (1 : Fin 2) = t.val % 4
    ∧ win0_1.index t (0 : Fin 2) = t.val % 4 ∧ win0_1.index t (1 : Fin 2) = t.val / 4 % 8
    ∧ win0_2.index t (0 : Fin 2) = t.val % 4 ∧ win0_2.index t (1 : Fin 2) = t.val / 4 % 8
    ∧ win0_3.index t (0 : Fin 2) = 0 ∧ win0_3.index t (1 : Fin 2) = t.val / 4 % 8
    ∧ win0_4.index t (0 : Fin 2) = 0 ∧ win0_4.index t (1 : Fin 2) = t.val / 4 % 8
    ∧ win0_5.index t (0 : Fin 2) = t.val / 32 ∧ win0_5.index t (1 : Fin 2) = t.val / 4 % 8 :=
  (by decide +kernel : ∀ t : Fin grid0.N, _)

/-- The activation block: rows of row block \`p / 32\`, columns of step \`p % 4\`. -/
theorem act_block (c : Dev nD) (t : Fin cfg0.N) (r : Fin 1024) (q : Fin 1024) (R : Fin 8192) (K : Fin 4096)
    (hR : R.val = 1024 * (t.val / 32) + r.val) (hK : K.val = 1024 * (t.val % 4) + q.val) :
    iblk m c 0 t (ix2 r q) = V m c main_v0 (ix2 R K) := by
  have hf := idx_facts t
  show V m c main_v0 (((cfg0.win 0).blk t).view.emb (ix2 r q)) = V m c main_v0 (ix2 R K)
  refine congrArg _ (funext fun a => Fin.ext ?_)
  match a with
  | ⟨0, _⟩ => show win0_0.index t (0 : Fin 2) * 1024 + 1 * r.val = R.val; rw [hf.1, hR]; omega
  | ⟨1, _⟩ => show win0_0.index t (1 : Fin 2) * 1024 + 1 * q.val = K.val; rw [hf.2.1, hK]; omega

/-- The integer-weight block: rows of step \`p % 4\`, columns of column block \`p / 4 % 8\`. -/
theorem wq_block (c : Dev nD) (t : Fin cfg0.N) (r : Fin 1024) (q : Fin 512) (R : Fin 4096) (K : Fin 4096)
    (hR : R.val = 1024 * (t.val % 4) + r.val) (hK : K.val = 512 * (t.val / 4 % 8) + q.val) :
    iblk m c 1 t (ix2 r q) = V m c main_arg1 (ix2 R K) := by
  have hf := idx_facts t
  show V m c main_arg1 (((cfg0.win 1).blk t).view.emb (ix2 r q)) = V m c main_arg1 (ix2 R K)
  refine congrArg _ (funext fun a => Fin.ext ?_)
  match a with
  | ⟨0, _⟩ => show win0_1.index t (0 : Fin 2) * 1024 + 1 * r.val = R.val; rw [hf.2.2.1, hR]; omega
  | ⟨1, _⟩ => show win0_1.index t (1 : Fin 2) * 512 + 1 * q.val = K.val; rw [hf.2.2.2.1, hK]; omega

/-- The scale block: the 8 group rows of step \`p % 4\`, columns of column block \`p / 4 % 8\`. -/
theorem scale_block (c : Dev nD) (t : Fin cfg0.N) (r : Fin 8) (q : Fin 512) (R : Fin 32) (K : Fin 4096)
    (hR : R.val = 8 * (t.val % 4) + r.val) (hK : K.val = 512 * (t.val / 4 % 8) + q.val) :
    iblk m c 2 t (ix2 r q) = V m c main_arg2 (ix2 R K) := by
  have hf := idx_facts t
  show V m c main_arg2 (((cfg0.win 2).blk t).view.emb (ix2 r q)) = V m c main_arg2 (ix2 R K)
  refine congrArg _ (funext fun a => Fin.ext ?_)
  match a with
  | ⟨0, _⟩ => show win0_2.index t (0 : Fin 2) * 8 + 1 * r.val = R.val; rw [hf.2.2.2.2.1, hR]; omega
  | ⟨1, _⟩ => show win0_2.index t (1 : Fin 2) * 512 + 1 * q.val = K.val; rw [hf.2.2.2.2.2.1, hK]; omega

/-- The correction row's block: columns of column block \`p / 4 % 8\`. -/
theorem u_block (c : Dev nD) (t : Fin cfg0.N) (r : Fin 1) (q : Fin 512) (R : Fin 1) (K : Fin 4096)
    (hR : R.val = 1 * (0) + r.val) (hK : K.val = 512 * (t.val / 4 % 8) + q.val) :
    iblk m c 3 t (ix2 r q) = V m c main_arg3 (ix2 R K) := by
  have hf := idx_facts t
  show V m c main_arg3 (((cfg0.win 3).blk t).view.emb (ix2 r q)) = V m c main_arg3 (ix2 R K)
  refine congrArg _ (funext fun a => Fin.ext ?_)
  match a with
  | ⟨0, _⟩ => show win0_3.index t (0 : Fin 2) * 1 + 1 * r.val = R.val; rw [hf.2.2.2.2.2.2.1, hR]; omega
  | ⟨1, _⟩ => show win0_3.index t (1 : Fin 2) * 512 + 1 * q.val = K.val; rw [hf.2.2.2.2.2.2.2.1, hK]; omega

/-- The bias row's block: columns of column block \`p / 4 % 8\`. -/
theorem bias_block (c : Dev nD) (t : Fin cfg0.N) (r : Fin 1) (q : Fin 512) (R : Fin 1) (K : Fin 4096)
    (hR : R.val = 1 * (0) + r.val) (hK : K.val = 512 * (t.val / 4 % 8) + q.val) :
    iblk m c 4 t (ix2 r q) = V m c main_v1 (ix2 R K) := by
  have hf := idx_facts t
  show V m c main_v1 (((cfg0.win 4).blk t).view.emb (ix2 r q)) = V m c main_v1 (ix2 R K)
  refine congrArg _ (funext fun a => Fin.ext ?_)
  match a with
  | ⟨0, _⟩ => show win0_4.index t (0 : Fin 2) * 1 + 1 * r.val = R.val; rw [hf.2.2.2.2.2.2.2.2.1, hR]; omega
  | ⟨1, _⟩ => show win0_4.index t (1 : Fin 2) * 512 + 1 * q.val = K.val; rw [hf.2.2.2.2.2.2.2.2.2.1, hK]; omega

end Cert.KernelIdeal.Blocks

end
-- ==== Proof.Steps.lean ====
/-
  The accumulator and the row sums, point by point, and the block the last step writes.

  Fix a row block and a column block.  Their four grid points come one after the other (steps 0 … 3 along the
  contracted axis of 4096 positions, 1024 per step).  For output entry `(R, C)` write `a_k = x_{R,k} · w_{k,C}` for the
  matrix product's summand.  A step adds to the accumulator's entry the sum of `a` over its 1024 positions, so after
  step `s` the entry holds the partial sum over blocks `0 … s`; likewise the running row sum holds the partial sum of
  `x_{R,k}`.  After step 3 both partial sums are the whole sums over the 4096 positions, and the block written there
  is the specification's entry `(Σ a + (Σ x) · u_C) + bias_C`.
-/
import proofs.«155571_j33260226740741_1_alg».proof.Proof.Gen.KernelIdeal.Frame
import proofs.«155571_j33260226740741_1_alg».proof.Proof.Spec
import proofs.«155571_j33260226740741_1_alg».proof.Proof.Body
import proofs.«155571_j33260226740741_1_alg».proof.Proof.Pieces
import proofs.«155571_j33260226740741_1_alg».proof.Proof.Blocks
import proofs.«155571_j33260226740741_1_alg».proof.Proof.LibBlockedSum

set_option maxRecDepth 16384

noncomputable section

namespace Cert.KernelIdeal.Steps

open Cert.KernelIdeal Cert.KernelIdeal.Gen
open Idealize.ShloMosaic Idealize.ShloMosaic.TcCoe Idealize.ShloMosaic.ValueIdx Idealize.SL.Sem

theorem h4096 : 0 < 4096 := by norm_num

/-! ## A step's sums are one block of the sums over the contracted axis -/

/-- With the step's blocks being the parts of the arrays at step `kk`'s positions `1024 kk + q` (and groups
    `8 kk + g`), the step's sum over its 1024 columns is block `kk` of the matrix product's sum for entry `(R, C)`. -/
theorem block_of_product (X : (⟨2, ![8192, 4096]⟩ : Shape).Idx → EReal) (Wq : (⟨2, ![4096, 4096]⟩ : Shape).Idx → BitVec 32)
    (Sc : (⟨2, ![32, 4096]⟩ : Shape).Idx → EReal)
    (x0 : Vec Ideal S1024x1024 .f32) (x1 : Vec Ideal S1024x512 .i32) (x2 : Vec Ideal S8x512 .f32)
    (kk : ℕ) (hkk : kk < 4) (R : Fin 8192) (C : Fin 4096) (r : Fin 1024) (n : Fin 512)
    (h0 : ∀ (q : Fin 1024) (K : Fin 4096), K.val = 1024 * kk + q.val → x0 (ix2 r q) = X (ix2 R K))
    (h1 : ∀ (q : Fin 1024) (K : Fin 4096), K.val = 1024 * kk + q.val → x1 (ix2 q n) = Wq (ix2 K C))
    (h2 : ∀ (g : Fin 8) (G : Fin 32), G.val = 8 * kk + g.val → x2 (ix2 g n) = Sc (ix2 G C)) :
    ∑ q : Fin 1024, Body.term x0 x1 x2 r n q
      = BlockedSum.blockSum h4096 1024 (fun k => X (ix2 R k) * Spec.deq Wq Sc k C) kk := by
  unfold BlockedSum.blockSum
  refine Finset.sum_congr rfl fun q _ => ?_
  have hv := BlockedSum.blkIdx_val h4096 (by norm_num : 4 * 1024 = 4096) hkk q
  have hq := q.isLt
  unfold Body.term Spec.deq
  rw [h0 q _ hv, h1 q _ hv,
    h2 ⟨q.val / 128, by omega⟩ (Spec.grp (BlockedSum.blkIdx h4096 1024 kk q))
      (by show (BlockedSum.blkIdx h4096 1024 kk q).val / 128 = 8 * kk + q.val / 128; rw [hv]; omega)]

/-- The same for the row sums. -/
theorem block_of_rowsum (X : (⟨2, ![8192, 4096]⟩ : Shape).Idx → EReal) (x0 : Vec Ideal S1024x1024 .f32)
    (kk : ℕ) (hkk : kk < 4) (R : Fin 8192) (r : Fin 1024)
    (h0 : ∀ (q : Fin 1024) (K : Fin 4096), K.val = 1024 * kk + q.val → x0 (ix2 r q) = X (ix2 R K)) :
    ∑ q : Fin 1024, x0 (ix2 r q) = BlockedSum.blockSum h4096 1024 (fun k => X (ix2 R k)) kk := by
  unfold BlockedSum.blockSum
  refine Finset.sum_congr rfl fun q _ => ?_
  exact h0 q _ (BlockedSum.blkIdx_val h4096 (by norm_num : 4 * 1024 = 4096) hkk q)

variable (m : (ℓ : Loc nD τ sig) → Buf (Elt Ideal) ℓ)

/-- The array row of local row `r` at point `t`: row block `t / 32`. -/
def rowOf (t : Fin cfg0.N) (r : Fin 1024) : Fin 8192 :=
  ⟨1024 * (t.val / 32) + r.val, by have := Blocks.lt256 t; have := r.isLt; omega⟩

/-- The array column of local column `n` at point `t`: column block `t / 4 % 8`. -/
def colOf (t : Fin cfg0.N) (n : Fin 512) : Fin 4096 :=
  ⟨512 * (t.val / 4 % 8) + n.val, by have := n.isLt; omega⟩

/-- The arrays as the region finds them: the activations as 8192 rows, the integer weights, the scales, the correction
    row and the bias row. -/
abbrev actArr (c : Dev nD) : (⟨2, ![8192, 4096]⟩ : Shape).Idx → EReal := V m c main_v0
abbrev wqArr (c : Dev nD) : (⟨2, ![4096, 4096]⟩ : Shape).Idx → BitVec 32 := V m c main_arg1
abbrev scaleArr (c : Dev nD) : (⟨2, ![32, 4096]⟩ : Shape).Idx → EReal := V m c main_arg2
abbrev uArr (c : Dev nD) : (⟨2, ![1, 4096]⟩ : Shape).Idx → EReal := V m c main_arg3
abbrev biasArr (c : Dev nD) : (⟨2, ![1, 4096]⟩ : Shape).Idx → EReal := V m c main_v1

/-- The matrix product's summand for entry `(R, C)` at contracted position `k`. -/
def prodTerm (c : Dev nD) (R : Fin 8192) (C : Fin 4096) (k : Fin 4096) : EReal :=
  actArr m c (ix2 R k) * Spec.deq (wqArr m c) (scaleArr m c) k C

/-- The row sum's summand. -/
def rowTerm (c : Dev nD) (R : Fin 8192) (k : Fin 4096) : EReal := actArr m c (ix2 R k)

/-- At point `t` the step's sum for local entry `(r, n)` is block `t % 4` of the product's sum for the array entry. -/
theorem step_acc (c : Dev nD) (t : Fin cfg0.N) (r : Fin 1024) (n : Fin 512) :
    ∑ q : Fin 1024, Body.term (iblk m c 0 t) (iblk m c 1 t) (iblk m c 2 t) r n q
      = BlockedSum.blockSum h4096 1024 (prodTerm m c (rowOf t r) (colOf t n)) (t.val % 4) :=
  block_of_product (actArr m c) (wqArr m c) (scaleArr m c) (iblk m c 0 t) (iblk m c 1 t) (iblk m c 2 t)
    (t.val % 4) (Nat.mod_lt _ (by norm_num)) (rowOf t r) (colOf t n) r n
    (fun q K hK => Blocks.act_block m c t r q (rowOf t r) K rfl hK)
    (fun q K hK => Blocks.wq_block m c t q n K (colOf t n) hK rfl)
    (fun g G hG => Blocks.scale_block m c t g n G (colOf t n) hG rfl)

/-- and the step's row sum is block `t % 4` of the array row's sum. -/
theorem step_row (c : Dev nD) (t : Fin cfg0.N) (r : Fin 1024) (x0 : Vec Ideal S1024x1024 .f32)
    (hx : ∀ q : Fin 1024, x0 (ix2 r q) = iblk m c 0 t (ix2 r q)) :
    ∑ q : Fin 1024, x0 (ix2 r q) = BlockedSum.blockSum h4096 1024 (rowTerm m c (rowOf t r)) (t.val % 4) :=
  block_of_rowsum (actArr m c) x0 (t.val % 4) (Nat.mod_lt _ (by norm_num)) (rowOf t r) r
    (fun q K hK => (hx q).trans (Blocks.act_block m c t r q (rowOf t r) K rfl hK))

/-! ## The partial sums, by induction over the points -/

set_option maxHeartbeats 1000000 in
/-- After a step that is not the last of its four, the accumulator's entries hold the partial sums of the product
    over blocks `0 … t % 4`, and the running row sums the partial sums of the rows. -/
theorem partial_sums (c : Dev nD) : ∀ (p : ℕ) (t : Fin cfg0.N), t.val = p → t.val % 4 ≠ 3 →
    (∀ (r : Fin 1024) (n : Fin 512), (outsAt0 m c t.val t.isLt).2.1 (ix2 r n)
        = BlockedSum.partialSum h4096 1024 (prodTerm m c (rowOf t r) (colOf t n)) (t.val % 4))
    ∧ (∀ r : Fin 1024, (outsAt0 m c t.val t.isLt).2.2 (ix2 r (0 : Fin 1))
        = BlockedSum.partialSum h4096 1024 (rowTerm m c (rowOf t r)) (t.val % 4)) := by
  intro p
  induction p using Nat.strong_induction_on with
  | _ p ih =>
    intro t htp h3
    have hN := Blocks.lt256 t
    by_cases h0 : t.val % 4 = 0
    · -- a first step: from zero
      rw [outsAt0_A m c t h0 h3]
      dsimp only
      constructor
      · intro r n
        rw [Pieces.first_acc]
        refine (Body.accStep_apply (iblk m c 0 t) (iblk m c 1 t) (iblk m c 2 t) (k0_pay3 (F := Ideal)) r n).trans ?_
        rw [Body.acc_start, zero_add]
        refine (step_acc m c t r n).trans ?_
        rw [h0]
        exact (BlockedSum.partialSum_zero _ _ _).symm
      · intro r
        rw [Pieces.first_rowsum]
        refine (Body.rowsum_apply (iblk m c 0 t) (k0_pay4 (F := Ideal)) r).trans ?_
        rw [Body.rowsum_start, zero_add]
        refine (step_row m c t r (iblk m c 0 t) (fun _ => rfl)).trans ?_
        rw [h0]
        exact (BlockedSum.partialSum_zero _ _ _).symm
    · -- a middle step: from what the step before left
      have ih' := ih (t.val - 1) (by omega) ⟨t.val - 1, Nat.lt_of_le_of_lt (Nat.sub_le _ _) t.isLt⟩ rfl
        (by show (t.val - 1) % 4 ≠ 3; omega)
      have hk : t.val % 4 = (t.val - 1) % 4 + 1 := by omega
      have hrow : ∀ r, rowOf ⟨t.val - 1, Nat.lt_of_le_of_lt (Nat.sub_le _ _) t.isLt⟩ r = rowOf t r := fun r =>
        Fin.ext (by show 1024 * ((t.val - 1) / 32) + r.val = 1024 * (t.val / 32) + r.val; omega)
      have hcol : ∀ n, colOf ⟨t.val - 1, Nat.lt_of_le_of_lt (Nat.sub_le _ _) t.isLt⟩ n = colOf t n := fun n =>
        Fin.ext (by show 512 * ((t.val - 1) / 4 % 8) + n.val = 512 * (t.val / 4 % 8) + n.val; omega)
      rw [outsAt0_B m c t h0 h3]
      dsimp only
      constructor
      · intro r n
        rw [Pieces.later_acc]
        refine (Body.accStep_apply (iblk m c 0 t) (iblk m c 1 t) (iblk m c 2 t) (outsAt0 m c (t.val - 1) (Nat.lt_of_le_of_lt (Nat.sub_le _ _) t.isLt)).2.1 r n).trans ?_
        rw [hk, BlockedSum.partialSum_succ]
        have hp := ih'.1 r n
        rw [hrow, hcol] at hp
        have e := step_acc m c t r n
        rw [hk] at e
        exact congrArg₂ (· + ·) hp e
      · intro r
        rw [Pieces.later_rowsum]
        refine (Body.rowsum_apply (iblk m c 0 t) (outsAt0 m c (t.val - 1) (Nat.lt_of_le_of_lt (Nat.sub_le _ _) t.isLt)).2.2 r).trans ?_
        rw [hk, BlockedSum.partialSum_succ]
        have hp := ih'.2 r
        rw [hrow] at hp
        have e := step_row m c t r (iblk m c 0 t) (fun _ => rfl)
        rw [hk] at e
        exact congrArg₂ (· + ·) hp e

/-! ## The block the last step writes -/

set_option maxHeartbeats 1000000 in
/-- On a last step the output block's entry `(r, n)` is the specification's entry for the array row and column. -/
theorem last_block (c : Dev nD) (t : Fin cfg0.N) (h3 : t.val % 4 = 3) (r : Fin 1024) (n : Fin 512) :
    (outsAt0 m c t.val t.isLt).1 (ix2 r n)
      = Spec.G2 (actArr m c) (wqArr m c) (scaleArr m c) (uArr m c) (biasArr m c) (ix2 (rowOf t r) (colOf t n)) := by
  have hN := Blocks.lt256 t
  have h0 : ¬t.val % 4 = 0 := by omega
  have ih' := partial_sums m c (t.val - 1) ⟨t.val - 1, Nat.lt_of_le_of_lt (Nat.sub_le _ _) t.isLt⟩ rfl
    (by show (t.val - 1) % 4 ≠ 3; omega)
  have hk : t.val % 4 = (t.val - 1) % 4 + 1 := by omega
  have hrow : rowOf ⟨t.val - 1, Nat.lt_of_le_of_lt (Nat.sub_le _ _) t.isLt⟩ r = rowOf t r :=
    Fin.ext (by show 1024 * ((t.val - 1) / 32) + r.val = 1024 * (t.val / 32) + r.val; omega)
  have hcol : colOf ⟨t.val - 1, Nat.lt_of_le_of_lt (Nat.sub_le _ _) t.isLt⟩ n = colOf t n :=
    Fin.ext (by show 512 * ((t.val - 1) / 4 % 8) + n.val = 512 * (t.val / 4 % 8) + n.val; omega)
  -- the finished accumulator: the partial sum over blocks 0 … 2 plus block 3 is the whole sum
  have hpa := ih'.1 r n
  rw [hrow, hcol] at hpa
  have ea := step_acc m c t r n
  rw [hk] at ea
  have e1 : Body.accStep (F := Ideal) (iblk m c 0 t) (iblk m c 1 t) (iblk m c 2 t) (outsAt0 m c (t.val - 1) (Nat.lt_of_le_of_lt (Nat.sub_le _ _) t.isLt)).2.1 (ix2 r n)
      = ∑ k : Fin 4096, prodTerm m c (rowOf t r) (colOf t n) k :=
    (Body.accStep_apply (iblk m c 0 t) (iblk m c 1 t) (iblk m c 2 t) (outsAt0 m c (t.val - 1) (Nat.lt_of_le_of_lt (Nat.sub_le _ _) t.isLt)).2.1 r n).trans
      ((congrArg₂ (· + ·) hpa ea).trans ((BlockedSum.partialSum_succ _ _ _ _).symm.trans
        (BlockedSum.partialSum_last h4096 (by norm_num : 4 * 1024 = 4096) _ (by show (t.val - 1) % 4 + 1 + 1 = 4; omega))))
  -- the finished row sum, likewise
  have hpx := ih'.2 r
  rw [hrow] at hpx
  have ex := step_row m c t r (iblk m c 0 t) (fun _ => rfl)
  rw [hk] at ex
  have e2 : k0_pay6 (F := Ideal) (iblk m c 0 t) (outsAt0 m c (t.val - 1) (Nat.lt_of_le_of_lt (Nat.sub_le _ _) t.isLt)).2.2 (ix2 r (0 : Fin 1))
      = ∑ k : Fin 4096, rowTerm m c (rowOf t r) k :=
    (Body.rowsum_apply (iblk m c 0 t) (outsAt0 m c (t.val - 1) (Nat.lt_of_le_of_lt (Nat.sub_le _ _) t.isLt)).2.2 r).trans
      ((congrArg₂ (· + ·) hpx ex).trans ((BlockedSum.partialSum_succ _ _ _ _).symm.trans
        (BlockedSum.partialSum_last h4096 (by norm_num : 4 * 1024 = 4096) _ (by show (t.val - 1) % 4 + 1 + 1 = 4; omega))))
  have e3 : iblk m c 3 t (ix2 (0 : Fin 1) n) = uArr m c (ix2 (0 : Fin 1) (colOf t n)) :=
    Blocks.u_block m c t (0 : Fin 1) n (0 : Fin 1) (colOf t n) (by simp) rfl
  have e4 : iblk m c 4 t (ix2 (0 : Fin 1) n) = biasArr m c (ix2 (0 : Fin 1) (colOf t n)) :=
    Blocks.bias_block m c t (0 : Fin 1) n (0 : Fin 1) (colOf t n) (by simp) rfl
  rw [outsAt0_C m c t h0 h3]
  dsimp only
  rw [Pieces.last_out]
  refine (Body.out_apply (Body.accStep (F := Ideal) (iblk m c 0 t) (iblk m c 1 t) (iblk m c 2 t) (outsAt0 m c (t.val - 1) (Nat.lt_of_le_of_lt (Nat.sub_le _ _) t.isLt)).2.1)
    (k0_pay6 (F := Ideal) (iblk m c 0 t) (outsAt0 m c (t.val - 1) (Nat.lt_of_le_of_lt (Nat.sub_le _ _) t.isLt)).2.2) (iblk m c 3 t) (iblk m c 4 t) r n).trans ?_
  exact congrArg₂ (· + ·) (congrArg₂ (· + ·) e1 (congrArg₂ (· * ·) e2 e3)) e4

end Cert.KernelIdeal.Steps

end
-- ==== Proof.Final.lean ====
/-
  The output array after the region.

  The output's block of row block `i` and column block `j` is written back once, by the last of the four steps of that
  pair, and holds there the specification's entries.  The 8 × 8 blocks tile the 8192 × 4096 array, so after the region
  the whole array holds the specification of the arrays the region found.
-/
import proofs.«155571_j33260226740741_1_alg».proof.Proof.Steps
import Idealize.ShloMosaic.Lib.Pipeline.Value

set_option maxRecDepth 16384

noncomputable section

namespace Cert.KernelIdeal.Final

open Cert.KernelIdeal Cert.KernelIdeal.Gen Cert.KernelIdeal.Steps
open Idealize.ShloMosaic Idealize.ShloMosaic.TcCoe Idealize.ShloMosaic.ValueIdx Idealize.SL.Sem

variable (m : (ℓ : Loc nD τ sig) → Buf (Elt Ideal) ℓ)

/-- The specification of the arrays the region finds. -/
abbrev target (c : Dev nD) : (⟨2, ![8192, 4096]⟩ : Shape).Idx → EReal :=
  Spec.G2 (actArr m c) (wqArr m c) (scaleArr m c) (uArr m c) (biasArr m c)

/-- What a writing point writes back is its block of the specification. -/
theorem flushed_eq (c : Dev nD) (t : Fin cfg0.N) (hf : (cfg0.win 5).flush t = true) :
    (dats m 0 c).flushed 5 t = ((cfg0.win 5).blk t).view.read (Elt Ideal) (target m c) := by
  have h3 : t.val % 4 = 3 := (flush0_5 t).mp hf
  have hfa := Blocks.idx_facts t
  show (cfg0.win 5).cut (grid0.coords t) ((dats m 0 c).after 5 t) = _
  rw [after0_5]
  funext j
  obtain ⟨r, n, rfl⟩ : ∃ (r : Fin 1024) (n : Fin 512), j = ix2 r n := ⟨j 0, j 1, eq_ix2 j⟩
  show (outsAt0 m c t.val t.isLt).1 (ix2 r n) = target m c (((cfg0.win 5).blk t).view.emb (ix2 r n))
  refine (last_block m c t h3 r n).trans (congrArg (target m c) (funext fun a => Fin.ext ?_))
  match a with
  | ⟨0, _⟩ =>
    show 1024 * (t.val / 32) + r.val = win0_5.index t (0 : Fin 2) * 1024 + 1 * r.val
    rw [hfa.2.2.2.2.2.2.2.2.2.2.1]; omega
  | ⟨1, _⟩ =>
    show 512 * (t.val / 4 % 8) + n.val = win0_5.index t (1 : Fin 2) * 512 + 1 * n.val
    rw [hfa.2.2.2.2.2.2.2.2.2.2.2]; omega

/-- An index of the array is in point `t`'s output block iff each coordinate is in the block's range on its axis. -/
theorem mem_blk (t : Fin cfg0.N) (i : S8192x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v2).slice (win0_5.rect t)).set ↔ _
  rw [View.set_slice_whole, Rect.mem_set_unit]
  exact Iff.rfl

/-- Every index of the array is in the block of a writing point: the last step of its row block and column block. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  obtain ⟨p, hp⟩ : ∃ p : ℕ, p = ((i 0).val / 1024 * 8 + (i 1).val / 512) * 4 + 3 := ⟨_, rfl⟩
  have hpN : p < cfg0.N := lt_of_lt_of_eq (by omega : p < 256) N_0.symm
  have hfa := Blocks.idx_facts ⟨p, hpN⟩
  refine ⟨⟨p, hpN⟩, (flush0_5 _).mpr (by show p % 4 = 3; omega), ?_⟩
  rw [mem_blk]
  intro a
  match a with
  | ⟨0, _⟩ =>
    show win0_5.index ⟨p, hpN⟩ (0 : Fin 2) * 1024 ≤ (i 0).val ∧ (i 0).val < win0_5.index ⟨p, hpN⟩ (0 : Fin 2) * 1024 + 1024
    rw [hfa.2.2.2.2.2.2.2.2.2.2.1]
    show p / 32 * 1024 ≤ (i 0).val ∧ (i 0).val < p / 32 * 1024 + 1024
    omega
  | ⟨1, _⟩ =>
    show win0_5.index ⟨p, hpN⟩ (1 : Fin 2) * 512 ≤ (i 1).val ∧ (i 1).val < win0_5.index ⟨p, hpN⟩ (1 : Fin 2) * 512 + 512
    rw [hfa.2.2.2.2.2.2.2.2.2.2.2]
    show p / 4 % 8 * 512 ≤ (i 1).val ∧ (i 1).val < p / 4 % 8 * 512 + 512
    omega

/-- The output array after the region is the specification of the arrays the region found. -/
theorem final (c : Dev nD) : (dats m 0 c).arrAt 5 cfg0.N = target m c :=
  (dats m 0 c).arrAt_eq_of_cover 5 (target m c) (fun t hf => flushed_eq m c t hf) cover

end Cert.KernelIdeal.Final

end
-- ==== Proof.Reshape.lean ====
/-
  The two layouts of the result agree.

  Flattening the activations `[4, 2048, 4096]` to `[8192, 4096]` puts batch `a`, row `s` at flat row `2048 a + s`; the
  bias vector `[4096]` laid out as a row `[1, 4096]` keeps its entries.  The specification computed on the flat
  arrays and un-flattened again is the specification of the original arrays: both read the same activation row, the
  same weights, and the same correction and bias entries.
-/
import proofs.«155571_j33260226740741_1_alg».proof.Proof.Spec
import Idealize.ShloMosaic.Lib.Pipeline.Value
import Idealize.ShloMosaic.Lib.ValueLayout

noncomputable section

namespace Cert.Spec

open Idealize.ShloMosaic Idealize.ShloMosaic.ValueIdx

theorem flat_eq (x : (⟨3, ![4, 2048, 4096]⟩ : Shape).Idx → EReal) (wq : (⟨2, ![4096, 4096]⟩ : Shape).Idx → BitVec 32)
    (sc : (⟨2, ![32, 4096]⟩ : Shape).Idx → EReal) (u : (⟨2, ![1, 4096]⟩ : Shape).Idx → EReal)
    (b : (⟨1, ![4096]⟩ : Shape).Idx → EReal)
    (hx : (⟨3, ![4, 2048, 4096]⟩ : Shape).ShapeCasts ⟨2, ![8192, 4096]⟩)
    (hb : (⟨1, ![4096]⟩ : Shape).ShapeCasts ⟨2, ![1, 4096]⟩)
    (ho : (⟨2, ![8192, 4096]⟩ : Shape).ShapeCasts ⟨3, ![4, 2048, 4096]⟩) :
    shapeCast ⟨3, ![4, 2048, 4096]⟩ (G2 (shapeCast ⟨2, ![8192, 4096]⟩ x hx) wq sc u (shapeCast ⟨2, ![1, 4096]⟩ b hb)) ho
      = G3 x wq sc u b := by
  funext i
  obtain ⟨a, s, n, rfl⟩ : ∃ (a : Fin 4) (s : Fin 2048) (n : Fin 4096), i = ix3 a s n := ⟨i 0, i 1, i 2, eq_ix3 i⟩
  have ha := a.isLt
  have hs := s.isLt
  have hR : a.val * 2048 + s.val < 8192 := by omega
  rw [shapeCast_apply _ ho (ix3 a s n) (ix2 (⟨a.val * 2048 + s.val, hR⟩ : Fin 8192) n) (by
    rw [Shape.rowMajor_val_two, Shape.rowMajor_val_three]
    show (a.val * 2048 + s.val) * 4096 + n.val = (a.val * 2048 + s.val) * 4096 + n.val
    rfl)]
  unfold G2 G3
  have ex : ∀ k : Fin 4096, shapeCast ⟨2, ![8192, 4096]⟩ x hx (ix2 (⟨a.val * 2048 + s.val, hR⟩ : Fin 8192) k) = x (ix3 a s k) :=
    fun k => shapeCast_apply x hx _ _ (by
      rw [Shape.rowMajor_val_three, Shape.rowMajor_val_two]
      show (a.val * 2048 + s.val) * 4096 + k.val = (a.val * 2048 + s.val) * 4096 + k.val
      rfl)
  have eb : shapeCast ⟨2, ![1, 4096]⟩ b hb (ix2 (0 : Fin 1) n) = b (ix1 n) := shapeCast_a_1a_apply b hb 0 n
  show entry (fun k => shapeCast ⟨2, ![8192, 4096]⟩ x hx (ix2 (⟨a.val * 2048 + s.val, hR⟩ : Fin 8192) k)) (fun k => deq wq sc k n)
      (u (ix2 (0 : Fin 1) n)) (shapeCast ⟨2, ![1, 4096]⟩ b hb (ix2 (0 : Fin 1) n))
    = entry (fun k => x (ix3 a s k)) (fun k => deq wq sc k n) (u (ix2 (0 : Fin 1) n)) (b (ix1 n))
  rw [eb, funext ex]

end Cert.Spec

end
-- ==== Proof.KernelRun.lean ====
/-
  The kernel's run, read: the result is the specification of the launch arguments.

  Before the region the host flattens the activations to 8192 rows and lays the bias out as a row; the other three
  arguments reach the region as launched.  After the region the host un-flattens the output array to 4 batches of 2048
  rows.  With the output array at the specification of the flat arrays, the result is the specification of the
  arguments themselves, and the arguments end as they were launched.
-/
import proofs.«155571_j33260226740741_1_alg».proof.Proof.Final
import proofs.«155571_j33260226740741_1_alg».proof.Proof.Reshape
import Idealize.ShloMosaic.Lib.StableHlo.Run

set_option maxRecDepth 16384

noncomputable section

namespace Cert.KernelIdeal.KRun

open Cert.KernelIdeal Cert.KernelIdeal.Gen Cert.KernelIdeal.Steps
open Idealize.ShloMosaic Idealize.ShloMosaic.TcCoe Idealize.ShloMosaic.ValueIdx Idealize.SL.Sem

variable (m : (ℓ : Loc nD τ sig) → Buf (Elt Ideal) ℓ) (ρ : Dev nD → PrngReg)

/-- The region finds the activations flattened to 8192 rows. -/
theorem act_found (c : Dev nD) :
    actArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- and the bias laid out as a row. -/
theorem bias_found (c : Dev nD) :
    biasArr m c = shapeCast S1x4096 (m ((c : Thread nD τ).loc main_arg4)) shapeCasts_S4096_S1x4096 := by
  show StableHlo.after hostOps0 (fun b => m (c, b)) (Proc.devRef .tc main_v1) = _
  after_results
  rfl

/-- The result buffer after the host's last line: the output array un-flattened. -/
theorem result_found (c : Dev nD) :
    Pipeline.afterTail₀ cfgs (dats m) 0 (V0 m) [hostOps1] c main_v3
      = shapeCast S4x2048x4096 (Final.target m c) shapeCasts_S8192x4096_S4x2048x4096 := by
  unfold Pipeline.afterTail₀
  show StableHlo.after hostOps1 _ (Proc.devRef .tc main_v3) = _
  after_results
  exact congrArg (fun y => shapeCast S4x2048x4096 y shapeCasts_S8192x4096_S4x2048x4096)
    ((Pipeline.withArrays_arr spec0 launch0.win.arr_inj c _ _ 5).trans (Final.final m c))

/-- The specification of the arrays the region finds, un-flattened, is the specification of the launch arguments. -/
theorem target_eq (c : Dev nD) :
    shapeCast S4x2048x4096 (Final.target m c) shapeCasts_S8192x4096_S4x2048x4096
      = Spec.G3 (m ((c : Thread nD τ).loc main_arg0)) (m ((c : Thread nD τ).loc main_arg1)) (m ((c : Thread nD τ).loc main_arg2)) (m ((c : Thread nD τ).loc main_arg3)) (m ((c : Thread nD τ).loc main_arg4)) := by
  have e1 : wqArr m c = m ((c : Thread nD τ).loc main_arg1) := V_main_arg1 m c
  have e2 : scaleArr m c = m ((c : Thread nD τ).loc main_arg2) := V_main_arg2 m c
  have e3 : uArr m c = m ((c : Thread nD τ).loc main_arg3) := V_main_arg3 m c
  unfold Final.target
  rw [act_found m c, bias_found m c, e1, e2, e3]
  exact Spec.flat_eq _ _ _ _ _ _ _ _

/-- THE RUN: every weakly fair execution of the kernel's program terminates with the result at the specification of
    the arguments and the arguments unchanged. -/
theorem run : θ_run defs (onTc (τ := τ) (main (F := Ideal))) ⟨m, fun _ => 0, ρ⟩ fun r => ∀ c : Dev nD,
      r.2.mem ((c : Thread nD τ).loc main_v3) = Spec.G3 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v3 (Pipeline.mem_restRefs_of main_v3 (by decide) (by decide))).trans ((result_found m c).trans (target_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KRun

end
-- ==== Proof.RefSide.lean ====
/-
  The reference side: its result array, read index by index, is the specification.

  The reference repeats each group's scale over the group's 128 weight rows (a copy along a new axis of 128, then a
  flattening of group and position to one axis of 4096: row `k` gets the scale of group `k / 128`), forms the weights
  `(q - 8) · scale`, multiplies the activations by them along the 4096 weight rows, adds each activation row's sum
  (started from zero) times the correction row, and adds the bias.  Entry `(a, s, n)` of that is the specification's
  entry for activation row `(a, s)` and column `n`.
-/
import proofs.«155571_j33260226740741_1_alg».proof.Proof.Gen.ReferenceIdeal.Read
import proofs.«155571_j33260226740741_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

theorem result_eq (x0 : (⟨S4x2048x4096, .f32⟩ : BufTy).Contents (Elt Ideal)) (x1 : (⟨S4096x4096, .i32⟩ : BufTy).Contents (Elt Ideal))
    (x2 : (⟨S32x4096, .f32⟩ : BufTy).Contents (Elt Ideal)) (x3 : (⟨S1x4096, .f32⟩ : BufTy).Contents (Elt Ideal))
    (x4 : (⟨S4096, .f32⟩ : BufTy).Contents (Elt Ideal)) :
    val_main_v17 (F := Ideal) x0 x1 x2 x3 x4 = Cert.Spec.G3 x0 x1 x2 x3 x4 := by
  funext i
  obtain ⟨a, s, n, rfl⟩ : ∃ (a : Fin 4) (s : Fin 2048) (n : Fin 4096), i = ix3 a s n := ⟨i 0, i 1, i 2, eq_ix3 i⟩
  have hn := n.isLt
  -- the activation row read by the product and by the row sum is row (a, s)
  have e_l : ∀ k : Fin 4096, lidx_main_v6 (ix3 a s n) k = ix3 a s k := fun k =>
    funext fun d => Fin.ext (by match d with | ⟨0, _⟩ => rfl | ⟨1, _⟩ => rfl | ⟨2, _⟩ => rfl)
  have e_s : ∀ k : Fin 4096, idx_main_v7 (idx_main_v8 (idx_main_v11 (ix3 a s n))) k = ix3 a s k := fun k =>
    funext fun d => Fin.ext (by match d with | ⟨0, _⟩ => rfl | ⟨1, _⟩ => rfl | ⟨2, _⟩ => rfl)
  -- the weight read at contracted position k is row k, column n
  have e_r : ∀ k : Fin 4096, ridx_main_v6 (ix3 a s n) k = ix2 k n := fun k =>
    funext fun d => Fin.ext (by match d with | ⟨0, _⟩ => rfl | ⟨1, _⟩ => rfl)
  -- and its scale is that of group k / 128, column n
  have e_g : ∀ k : Fin 4096, idx_main_v0 (idx_main_v1 (ix2 k n)) = ix2 (Cert.Spec.grp k) n := fun k =>
    funext fun d => Fin.ext (by
      have hk := k.isLt
      match d with
      | ⟨0, _⟩ => show (k.val * 4096 + n.val) / 524288 = k.val / 128; omega
      | ⟨1, _⟩ => show (k.val * 4096 + n.val) % 4096 = n.val; omega)
  -- the correction and bias entries are those of column n
  have e_u : idx_main_v9 (idx_main_v10 (idx_main_v12 (ix3 a s n))) = ix2 (0 : Fin 1) n :=
    funext fun d => Fin.ext (by
      match d with
      | ⟨0, _⟩ => rfl
      | ⟨1, _⟩ => show n.val % 4096 = n.val; omega)
  have e_b : idx_main_v15 (idx_main_v16 (ix3 a s n)) = ix1 n :=
    funext fun d => Fin.ext (by match d with | ⟨0, _⟩ => rfl)
  rw [val_main_v17_apply, val_main_v14_apply, val_main_v6_apply, val_main_v13_apply, val_main_v11_apply, val_main_v8_apply,
    val_main_v7_apply, val_main_v12_apply, val_main_v10_apply, val_main_v9_apply, val_main_v16_apply, val_main_v15_apply]
  simp only [val_main_v5_apply, val_main_v4_apply, val_main_v2_apply, val_main_v3_apply, val_main_cst_apply,
    val_main_v1_apply, val_main_v0_apply, val_main_cst_0_apply, e_l, e_s, e_r, e_g, e_u, e_b,
    Ideal.addf_def, Ideal.mulf_def, Ideal.subf_def, Ideal.ofBits_def, Ideal.ofBits_zero_f32, zero_add]
  rfl

end Cert.ReferenceIdeal.RefValue

end
-- ==== Proof.lean ====
/-
  A 4-bit grouped-quantized linear layer with a rank-one correction and a bias: the kernel against its reference.

  Both programs compute, for activations `x` (4 × 2048 rows of 4096), integer weights `q` (4096 × 4096), one scale per
  group of 128 weight rows and column, a correction row `u` and a bias,

      out[a, s, n] = (Σ_k x[a, s, k] · (q[k, n] - 8) · scale[k / 128, n]  +  (Σ_k x[a, s, k]) · u[n])  +  bias[n] .

  The reference computes the sums whole.  The kernel flattens the rows to 8192, tiles the output into 1024 × 512
  blocks, walks the 4096 contracted positions in 4 steps of 1024 and, inside a step, in 8 groups of 128 (so that each
  group has one scale row), accumulating the products and the row sums in scratch memory carried from step to step,
  and writes a block on its last step.  Over the extended reals the two differ only in how the finite sums are grouped
  — associativity and commutativity of the addition — so the results are equal for all inputs; the precondition is
  not used.  The idealization of the kernel rewrites nothing, so there is nothing to preserve.

  The parts: `Spec` (the function), `Body` (one step's arithmetic at an entry), `Pieces` (what each kind of step
  leaves), `Blocks` (which part of each array a point sees), `Steps` (the partial sums by induction over the points),
  `Final` (the output array), `Reshape` and `KernelRun` (the host's layout changes and the kernel's run),
  `RefSide` (the reference is the function).
-/
import proofs.«155571_j33260226740741_1_alg».proof.Defs
import proofs.«155571_j33260226740741_1_alg».proof.Proof.Gen.Kernel.Frame
import proofs.«155571_j33260226740741_1_alg».proof.Proof.Gen.KernelIdeal.Frame
import proofs.«155571_j33260226740741_1_alg».proof.Proof.Gen.ReferenceIdeal
import proofs.«155571_j33260226740741_1_alg».proof.Proof.Gen.ReferenceIdeal.Run
import proofs.«155571_j33260226740741_1_alg».proof.Proof.Gen.Pre_finite_inputs
import proofs.«155571_j33260226740741_1_alg».proof.Proof.KernelRun
import proofs.«155571_j33260226740741_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments, the kernel and the reference both end with
    the specification of the arguments in their result arrays. -/
theorem algebraic : Cert.algebraic_KernelIdeal_ReferenceIdeal := by
  intro m ρ m' ρ' _ hagree
  refine ⟨fun c => Cert.Spec.G3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v17_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
